-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x2048x2048 : Shape := ⟨3, ![4, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x2048x2048 1) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x2048x2048 : Shape := ⟨3, ![4, 2048, 2048]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x512x2048 : Shape := ⟨3, ![1, 512, 2048]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x2048x2048, .i1⟩
  | .hbm, ⟨4, _⟩ => ⟨S4x16x2048x64, .bf16⟩
  | .hbm, ⟨5, _⟩ => ⟨S4x16x2048x64, .bf16⟩
  | .hbm, ⟨6, _⟩ => ⟨S4x16x2048x64, .bf16⟩
  | .hbm, ⟨7, _⟩ => ⟨S4x2048x2048, .i32⟩
  | .hbm, ⟨8, _⟩ => ⟨S4x16x2048x64, .f32⟩
  | .hbm, ⟨9, _⟩ => ⟨S4x16x2048x2048, .f32⟩
  | .local _ .vmem, ⟨0, _⟩ => ⟨S1x1x512x64, .bf16⟩
  | .local _ .vmem, ⟨1, _⟩ => ⟨S1x1x512x64, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x512x2048, .i32⟩
  | .local _ .vmem, ⟨7, _⟩ => ⟨S1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .bf16 = 32 ∨ (Rect.block (s := S4x16x2048x64) S1x1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .bf16 = 32 ∨ (Rect.block (s := S4x16x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .bf16 = 32 ∨ (Rect.block (s := S4x16x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x2048x2048.size a
  hwx0_3 : ∀ i : grid0.Coords, EltTy.bits .i32 = 32 ∨ (Rect.block (s := S4x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x2048x2048 : Shape := ⟨3, ![4, 2048, 2048]⟩
abbrev S4x16x2048x2048 : Shape := ⟨4, ![4, 16, 2048, 2048]⟩
abbrev S_ : Shape := ⟨0, ![]⟩
abbrev S4x1x2048x2048 : Shape := ⟨4, ![4, 1, 2048, 2048]⟩
abbrev S4x16x2048 : Shape := ⟨3, ![4, 16, 2048]⟩
abbrev S4x16x2048x1 : Shape := ⟨4, ![4, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x2048x2048, .i1⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S4x1x2048x2048, .i1⟩
  | .hbm, ⟨9, _⟩ => ⟨S_, .f32⟩
  | .hbm, ⟨10, _⟩ => ⟨S_, .f32⟩
  | .hbm, ⟨11, _⟩ => ⟨S4x16x2048x2048, .i1⟩
  | .hbm, ⟨12, _⟩ => ⟨S4x16x2048x2048, .f32⟩
  | .hbm, ⟨13, _⟩ => ⟨S4x16x2048x2048, .f32⟩
  | .hbm, ⟨14, _⟩ => ⟨S_, .f32⟩
  | .hbm, ⟨15, _⟩ => ⟨S4x16x2048, .f32⟩
  | .hbm, ⟨16, _⟩ => ⟨S_, .f32⟩
  | .hbm, ⟨17, _⟩ => ⟨S4x16x2048, .f32⟩
  | .hbm, ⟨18, _⟩ => ⟨S4x16x2048, .f32⟩
  | .hbm, ⟨19, _⟩ => ⟨S4x16x2048x1, .f32⟩
  | .hbm, ⟨20, _⟩ => ⟨S4x16x2048x2048, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S4x16x2048x1, .f32⟩
  | .hbm, ⟨26, _⟩ => ⟨S4x16x2048x2048, .f32⟩
  | .hbm, ⟨27, _⟩ => ⟨S4x16x2048x2048, .f32⟩
  | .hbm, ⟨28, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x2048x2048_S4x1x2048x2048_0_2_3 : S4x2048x2048.BroadcastsInDim S4x1x2048x2048 (![0, 2, 3] : Fin 3 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Scaled dot-product attention with a mask, stated once over the extended reals.

  For a batch `b`, a head `h` and a query position `l`, the SCORE against key position `m` is the fill value
  `-1e9` where the mask bit of `(b, l, m)` is set and `(∑_d Q[b,h,l,d] · K[b,h,m,d]) · 0.125` elsewhere. The
  row of scores is turned into a row of weights by the softmax taken relative to the row's maximum `M`:
  weight `m` is `exp (s m - M) / ∑_{m'} exp (s m' - M)`. The two results are the array of weights
  `attn[b,h,l,m]` and its product with the values, `res[b,h,l,d] = ∑_m attn[b,h,l,m] · V[b,h,m,d]`.

  Everything below is a function of ONE ROW's data (`scoreRow`, `rowMax`, `softmaxRow`), so that the kernel,
  which sees a row through a block of 512 query positions, and the reference, which sees it through the
  whole arrays, are both instances of the same row functions.
-/
import Idealize.ShloMosaic.PureOps.Ideal
import Idealize.ShloMosaic.Lib.ValueIdx

noncomputable section

namespace Cert.Attn

open Idealize.ShloMosaic Idealize.ShloMosaic.ValueIdx

/-- The value a masked score takes: the pattern of `-1e9`. -/
abbrev fill : EReal := Ideal.ofBits .f32 0xCE6E6B28#32
/-- The factor on the scores: the pattern of `0.125`. -/
abbrev scale : EReal := Ideal.ofBits .f32 0x3E000000#32
/-- Where a row's maximum starts: the pattern of `-∞`. -/
abbrev negInf : EReal := Ideal.ofBits .f32 0xFF800000#32

/-- One query row `q` against key row `m` of `k`: the fill value where the mask bit is set, the scaled inner
    product elsewhere. -/
def scoreRow (q : Fin 64 → EReal) (k : Fin 2048 → Fin 64 → EReal) (mk : Fin 2048 → BitVec 1) (m : Fin 2048) : EReal :=
  Scalar.select (mk m) fill ((∑ d : Fin 64, q d * k m d) * scale)

/-- The maximum of a row, taken from `-∞`. -/
def rowMax (s : Fin 2048 → EReal) : EReal := (Finset.univ : Finset (Fin 2048)).fold max negInf s

/-- A row's exponentials relative to its maximum. -/
def expRow (s : Fin 2048 → EReal) (m : Fin 2048) : EReal := Ideal.exp (s m - rowMax s)

/-- The softmax of a row: each exponential over the sum of them all. -/
def softmaxRow (s : Fin 2048 → EReal) (m : Fin 2048) : EReal :=
  Ideal.div (expRow s m) (∑ m' : Fin 2048, expRow s m')

/-- The score row of `(b, h, l)` read off the whole arrays. -/
def scoresAt (Q K : (⟨4, ![4, 16, 2048, 64]⟩ : Shape).Idx → EReal) (Mk : (⟨3, ![4, 2048, 2048]⟩ : Shape).Idx → BitVec 1)
    (b : Fin 4) (h : Fin 16) (l : Fin 2048) : Fin 2048 → EReal :=
  scoreRow (fun d => Q (ix4 b h l d)) (fun m d => K (ix4 b h m d)) (fun m => Mk (ix3 b l m))

/-- The attention weight of `(b, h, l, m)`. -/
def attnAt (Q K : (⟨4, ![4, 16, 2048, 64]⟩ : Shape).Idx → EReal) (Mk : (⟨3, ![4, 2048, 2048]⟩ : Shape).Idx → BitVec 1)
    (b : Fin 4) (h : Fin 16) (l m : Fin 2048) : EReal :=
  softmaxRow (scoresAt Q K Mk b h l) m

/-- The weighted sum of the values at `(b, h, l, d)`. -/
def resAt (Q K V : (⟨4, ![4, 16, 2048, 64]⟩ : Shape).Idx → EReal) (Mk : (⟨3, ![4, 2048, 2048]⟩ : Shape).Idx → BitVec 1)
    (b : Fin 4) (h : Fin 16) (l : Fin 2048) (d : Fin 64) : EReal :=
  ∑ m : Fin 2048, attnAt Q K Mk b h l m * V (ix4 b h m d)

/-- The array of attention weights. -/
def attn (Q K : (⟨4, ![4, 16, 2048, 64]⟩ : Shape).Idx → EReal) (Mk : (⟨3, ![4, 2048, 2048]⟩ : Shape).Idx → BitVec 1) :
    (⟨4, ![4, 16, 2048, 2048]⟩ : Shape).Idx → EReal :=
  fun i => attnAt Q K Mk (i 0) (i 1) (i 2) (i 3)

/-- The array of weighted sums. -/
def res (Q K V : (⟨4, ![4, 16, 2048, 64]⟩ : Shape).Idx → EReal) (Mk : (⟨3, ![4, 2048, 2048]⟩ : Shape).Idx → BitVec 1) :
    (⟨4, ![4, 16, 2048, 64]⟩ : Shape).Idx → EReal :=
  fun i => resAt Q K V Mk (i 0) (i 1) (i 2) (i 3)

theorem attn_ix (Q K : (⟨4, ![4, 16, 2048, 64]⟩ : Shape).Idx → EReal) (Mk : (⟨3, ![4, 2048, 2048]⟩ : Shape).Idx → BitVec 1)
    (b : Fin 4) (h : Fin 16) (l m : Fin 2048) : attn Q K Mk (ix4 b h l m) = attnAt Q K Mk b h l m := rfl

theorem res_ix (Q K V : (⟨4, ![4, 16, 2048, 64]⟩ : Shape).Idx → EReal) (Mk : (⟨3, ![4, 2048, 2048]⟩ : Shape).Idx → BitVec 1)
    (b : Fin 4) (h : Fin 16) (l : Fin 2048) (d : Fin 64) : res Q K V Mk (ix4 b h l d) = resAt Q K V Mk b h l d := rfl

end Cert.Attn

end
-- ==== Proof.KernelPieces.lean ====
/-
  What one run of the attention body leaves in its two output blocks, as values of the four input blocks.

  The body computes the block of attention weights from the queries', the keys' and the mask's blocks and stores it
  whole into the weights' output block; it then reads that block back and stores, whole, its product with the values'
  block into the results' output block. Each output block is covered by ONE store through the whole block, so what it
  holds afterwards is that store's value, and the load in between reads what the first store left. Hence:
    the weights' block is the weights' expression of the queries', keys' and mask blocks (`out5`);
    the results' block is the product expression of the values' block and of that same weights' block (`out4`).
  Both hold for any reading of the floats.
-/
import proofs.«135788_j45165876085421_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole block of rank 4, and of rank 3. -/
theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The weights' output block after the body: the one covering store's value, whose loads read the whole input blocks. -/
theorem out5 (c : Dev nD) (i : grid0.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x512x2048 .i32) (harg6 : arg6.IsWhole) (arg7 : Memref sig .tc .vmem S1x1x512x64 .f32) (harg7 : arg7.IsWhole) (arg8 : Memref sig .tc .vmem S1x1x512x2048 .f32) (harg8 : arg8.IsWhole)
    (x0 : Vec F S1x1x512x64 .bf16) (x1 : Vec F S1x1x2048x64 .bf16) (x2 : Vec F S1x1x2048x64 .bf16) (x3 : Vec F S1x512x2048 .i32) :
    out0_A_5 c i arg3 harg3 arg4 harg4 arg5 harg5 arg6 harg6 arg7 harg7 arg8 harg8 x0 x1 x2 x3 = k0_pay3 x0 x1 x3 := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg6.read_unread,
    View.ld_unit_zero (S := S1x1x512x64) hz4, View.ld_unit_zero (S := S1x1x2048x64) hz4, View.ld_unit_zero (S := S1x512x2048) hz3]

/-- The results' output block after the body: the one covering store's value, the product of the reloaded weights'
    block — what the earlier store left there — with the values' block. -/
theorem out4 (c : Dev nD) (i : grid0.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x512x2048 .i32) (harg6 : arg6.IsWhole) (arg7 : Memref sig .tc .vmem S1x1x512x64 .f32) (harg7 : arg7.IsWhole) (arg8 : Memref sig .tc .vmem S1x1x512x2048 .f32) (harg8 : arg8.IsWhole)
    (x0 : Vec F S1x1x512x64 .bf16) (x1 : Vec F S1x1x2048x64 .bf16) (x2 : Vec F S1x1x2048x64 .bf16) (x3 : Vec F S1x512x2048 .i32) :
    out0_A_4 c i arg3 harg3 arg4 harg4 arg5 harg5 arg6 harg6 arg7 harg7 arg8 harg8 x0 x1 x2 x3 = k0_pay1 (k0_pay2 x2) (k0_pay3 x0 x1 x3) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero (S := S1x1x512x64) hz4, View.readCov_unit_zero (S := S1x1x512x2048) _ hz4]
  simp only [View.readAt_eq_ld, harg3.read_unread, harg4.read_unread, harg5.read_unread, harg6.read_unread,
    View.ld_unit_zero (S := S1x1x512x64) hz4, View.ld_unit_zero (S := S1x1x2048x64) hz4, View.ld_unit_zero (S := S1x512x2048) hz3]

end Cert.KernelIdeal.Pieces
end
-- ==== Proof.LibRowOps.lean ====
/-
  Row-wise operations of a matrix read at an index written by coordinates.

  A kernel that normalises each row of an `[a, b]` matrix reduces along the rows into an `[a]` vector, views it
  as an `[a, 1]` column and broadcasts the column back over `[a, b]`; the blocks it loads and stores carry two
  leading unit axes, `[1, 1, a, b]`. This file reads each of these steps at an index `ixN …`:
  • the casts between `[1, 1, a, b]` and `[a, b]` (the same row-major position),
  • a vector made a column and broadcast over the columns: entry `(i, j)` is the vector's entry `i`,
  • a `maximumf` reduction along the rows at `i`: the fold of `max` over `k` of entry `(i, k)`, from the accumulator's value,
  • an `add` reduction along the rows at `i`: the sum over `k` of entry `(i, k)`.
-/
import Idealize.ShloMosaic.Lib.Pipeline.Value
import Idealize.ShloMosaic.Lib.ValueIdx
import Idealize.ShloMosaic.PureOps.Ideal.Laws

noncomputable section

namespace Cert.Attn.RowOps

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector viewed as a column and broadcast over `b` columns reads, at `(i, j)`, the vector at `i`. -/
theorem column_broadcast_apply {a b : ℕ} (x : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (i : Fin a) (j : Fin b) :
    broadcastTo ⟨2, ![a, b]⟩ (shapeCast ⟨2, ![a, 1]⟩ x h₁) h₂ (ix2 i j) = x (ix1 i) := by
  refine (broadcastTo_apply _ h₂ (ix2 i j) (ix2 i (0 : Fin 1)) fun ax => ?_).trans ?_
  · match ax with
    | ⟨0, _⟩ =>
      show i.val = if a = 1 then 0 else i.val
      split
      · have := i.isLt; omega
      · rfl
    | ⟨1, _⟩ => rfl
  · exact shapeCast_apply x h₁ _ _ (by
      rw [Shape.rowMajor_val_two, Shape.rowMajor_val_one]
      show i.val = i.val * 1 + 0
      omega)

/-- A `maximumf` reduction of an `[a, b]` matrix along its rows, read at row `i` over the extended reals: the fold of
    `max`, from the accumulator's value, over the row's entries. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  refine Finset.fold_congr fun k _ => congrArg src (funext fun ax => Fin.ext ?_)
  match ax with
  | ⟨0, _⟩ => rfl
  | ⟨1, _⟩ => rfl

/-- An `add` reduction of an `[a, b]` matrix along its rows, read at row `i` over the extended reals: the sum of the
    row's entries. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.Attn.RowOps

end
-- ==== Proof.KernelPayload.lean ====
/-
  The attention body's two stored values, read at an index over the extended reals.

  The weights' value is a chain of whole-block operations on `[512, 2048]` matrices: the product of the queries' block
  with the transposed keys' block, scaled by `0.125`; the fill value selected where the mask word is not zero; each
  row's maximum (from `-∞`) made a column and spread back over the row; the exponential of the difference; each row's
  sum spread back likewise; the quotient. Read at `(r, m)` every step depends on row `r` alone, so the value at
  `(r, m)` is the softmax of query `r`'s score row, at `m` (`pay3_at`). The results' value at `(r, d)` is the sum over
  `m` of the reloaded weight `(r, m)` times the value `(m, d)`; the change of float format in between is the identity
  here (`pay1_at`).
-/
import proofs.«135788_j45165876085421_2_alg».proof.Proof.Gen.KernelIdeal.Skeleton
import proofs.«135788_j45165876085421_2_alg».proof.Proof.Spec
import proofs.«135788_j45165876085421_2_alg».proof.Proof.LibRowOps
import Idealize.ShloMosaic.Lib.ValueLayout

noncomputable section

namespace Cert.KernelIdeal.Payload

open Cert.KernelIdeal Cert.KernelIdeal.Gen Idealize.ShloMosaic Idealize.ShloMosaic.ValueIdx Cert.Attn Cert.Attn.RowOps

/-- Each row's maximum, spread back over the row. -/
def rowMaxVec (s : FVec Ideal S512x2048 .f32) : FVec Ideal S512x2048 .f32 :=
  broadcastTo S512x2048 (shapeCast S512x1 (multiReduction .maximumf [1] S512 s 0xFF800000#32 reduces_S512x2048_S512 (.inl rfl) rfl)
    shapeCasts_S512_S512x1) broadcasts_S512x1_S512x2048

/-- The exponentials of the scores relative to their row's maximum. -/
def expVec (s : FVec Ideal S512x2048 .f32) : FVec Ideal S512x2048 .f32 := exp (subf s (rowMaxVec s))

/-- Each row's sum, spread back over the row. -/
def rowSumVec (e : FVec Ideal S512x2048 .f32) : FVec Ideal S512x2048 .f32 :=
  broadcastTo S512x2048 (shapeCast S512x1 (multiReduction .add [1] S512 e 0x00000000#32 reduces_S512x2048_S512 (.inl rfl) rfl)
    shapeCasts_S512_S512x1) broadcasts_S512x1_S512x2048

/-- The kernel's softmax of a `[512, 2048]` matrix of scores. -/
def softmaxVec (s : FVec Ideal S512x2048 .f32) : FVec Ideal S512x2048 .f32 := divf (expVec s) (rowSumVec (expVec s))

/-- The kernel's masked, scaled scores of a block of queries against the keys. -/
def scoresVec (v1 : FVec Ideal S512x64 .bf16) (v3 : FVec Ideal S2048x64 .bf16) (v10 : IVec S512x2048 32) : FVec Ideal S512x2048 .f32 :=
  select (cmpi .ne v10 (constantI S512x2048 32 0#32)) (broadcast S512x2048 (Scalar.ofBits .f32 0xCE6E6B28#32))
    (mulf (matmul dot_S512x64_S2048x64_S512x2048_1_1_0_0_n_n none v1 v3 (constant S512x2048 .f32 0x00000000#32))
      (broadcast S512x2048 (Scalar.ofBits .f32 0x3E000000#32)))

/-- The weights' value is the softmax of the scores, viewed as a `[1, 1, 512, 2048]` block. -/
theorem pay3_eq (x0 : Vec Ideal S1x1x512x64 .bf16) (x1 : Vec Ideal S1x1x2048x64 .bf16) (x3 : Vec Ideal S1x512x2048 .i32) :
    k0_pay3 (F := Ideal) x0 x1 x3 = shapeCast S1x1x512x2048 (softmaxVec (scoresVec (shapeCast S512x64 x0 shapeCasts_S1x1x512x64_S512x64)
      (shapeCast S2048x64 x1 shapeCasts_S1x1x2048x64_S2048x64) (shapeCast S512x2048 x3 shapeCasts_S1x512x2048_S512x2048))) shapeCasts_S512x2048_S1x1x512x2048 := rfl

/-- At `(r, k)`: the maximum of row `r`. -/
theorem rowMaxVec_at (s : FVec Ideal S512x2048 .f32) (r : Fin 512) (k : Fin 2048) :
    rowMaxVec s (ix2 r k) = rowMax (fun k => s (ix2 r k)) :=
  (column_broadcast_apply _ shapeCasts_S512_S512x1 broadcasts_S512x1_S512x2048 r k).trans
    (multiReduction_max_rows s 0xFF800000#32 reduces_S512x2048_S512 (.inl rfl) rfl r)

/-- At `(r, k)`: the exponential of entry `(r, k)` less the maximum of row `r`. -/
theorem expVec_at (s : FVec Ideal S512x2048 .f32) (r : Fin 512) (k : Fin 2048) :
    expVec s (ix2 r k) = expRow (fun k => s (ix2 r k)) k := by
  show Ideal.exp (s (ix2 r k) - rowMaxVec s (ix2 r k)) = _
  rw [rowMaxVec_at]; rfl

/-- At `(r, k)`: the sum of row `r`. -/
theorem rowSumVec_at (e : FVec Ideal S512x2048 .f32) (r : Fin 512) (k : Fin 2048) :
    rowSumVec e (ix2 r k) = ∑ k' : Fin 2048, e (ix2 r k') :=
  (column_broadcast_apply _ shapeCasts_S512_S512x1 broadcasts_S512x1_S512x2048 r k).trans
    (multiReduction_add_rows e 0x00000000#32 reduces_S512x2048_S512 (.inl rfl) rfl r)

/-- At `(r, m)`: the softmax of row `r`, at `m`. -/
theorem softmaxVec_at (s : FVec Ideal S512x2048 .f32) (r : Fin 512) (m : Fin 2048) :
    softmaxVec s (ix2 r m) = softmaxRow (fun k => s (ix2 r k)) m := by
  show Ideal.div (expVec s (ix2 r m)) (rowSumVec (expVec s) (ix2 r m)) = _
  rw [rowSumVec_at, expVec_at]
  simp only [expVec_at]
  rfl

/-- In the product of queries and keys, the left operand is read at the result's row, -/
theorem qk_lhs_row (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
/-- and the right operand at the row named by the result's column. -/
theorem qk_rhs_row (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

/-- Queries times keys: entry `(r, m)` is the inner product over `d` of query row `r` and key row `m`. -/
theorem qk_apply (v1 : FVec Ideal S512x64 .bf16) (v3 : FVec Ideal S2048x64 .bf16) (r : Fin 512) (m : Fin 2048) :
    matmul dot_S512x64_S2048x64_S512x2048_1_1_0_0_n_n none v1 v3 (constant S512x2048 .f32 0x00000000#32) (ix2 r m)
      = ∑ d : Fin 64, v1 (ix2 r d) * v3 (ix2 m d) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r m) ((contrEquiv1 dot_S512x64_S2048x64_S512x2048_1_1_0_0_n_n 64 rfl rfl).symm k) = ix2 r k :=
    funext fun a => Fin.ext (by
      match a with
      | ⟨0, _⟩ => exact qk_lhs_row _ _
      | ⟨1, _⟩ => exact (dot_S512x64_S2048x64_S512x2048_1_1_0_0_n_n.lhsIdx_val_of_single rfl _ _).trans hk)
  have er : dot_S512x64_S2048x64_S512x2048_1_1_0_0_n_n.rhsIdx (ix2 r m) ((contrEquiv1 dot_S512x64_S2048x64_S512x2048_1_1_0_0_n_n 64 rfl rfl).symm k) = ix2 m k :=
    funext fun a => Fin.ext (by
      match a with
      | ⟨0, _⟩ => exact qk_rhs_row _ _
      | ⟨1, _⟩ => exact (dot_S512x64_S2048x64_S512x2048_1_1_0_0_n_n.rhsIdx_val_of_single rfl _ _).trans hk)
  rw [el, er]

/-- In the product of weights and values, the left operand is read at the result's row, -/
theorem av_lhs_row (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
/-- and the right operand at the result's column. -/
theorem av_rhs_col (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Weights times values: entry `(r, d)` is the sum over `m` of weight `(r, m)` times value `(m, d)`. -/
theorem av_apply (p : FVec Ideal S512x2048 .bf16) (v5 : FVec Ideal S2048x64 .bf16) (r : Fin 512) (d : Fin 64) :
    matmul dot_S512x2048_S2048x64_S512x64_1_0_0_1_n_n none p v5 (constant S512x64 .f32 0x00000000#32) (ix2 r d)
      = ∑ m : Fin 2048, p (ix2 r m) * v5 (ix2 m d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k :=
    funext fun a => Fin.ext (by
      match a with
      | ⟨0, _⟩ => exact av_lhs_row _ _
      | ⟨1, _⟩ => exact (dot_S512x2048_S2048x64_S512x64_1_0_0_1_n_n.lhsIdx_val_of_single rfl _ _).trans hk)
  have er : dot_S512x2048_S2048x64_S512x64_1_0_0_1_n_n.rhsIdx (ix2 r d) ((contrEquiv1 dot_S512x2048_S2048x64_S512x64_1_0_0_1_n_n 2048 rfl rfl).symm k) = ix2 k d :=
    funext fun a => Fin.ext (by
      match a with
      | ⟨0, _⟩ => exact (dot_S512x2048_S2048x64_S512x64_1_0_0_1_n_n.rhsIdx_val_of_single rfl _ _).trans hk
      | ⟨1, _⟩ => exact av_rhs_col _ _)
  rw [el, er]

/-- At `(r, m)`: the score of query row `r` against key row `m`, masked by the word at `(r, m)`. -/
theorem scoresVec_at (v1 : FVec Ideal S512x64 .bf16) (v3 : FVec Ideal S2048x64 .bf16) (v10 : IVec S512x2048 32) (r : Fin 512) (m : Fin 2048) :
    scoresVec v1 v3 v10 (ix2 r m)
      = scoreRow (fun d => v1 (ix2 r d)) (fun k d => v3 (ix2 k d)) (fun k => IntOp.cmpi .ne (v10 (ix2 r k)) 0#32) m := by
  show Scalar.select (IntOp.cmpi .ne (v10 (ix2 r m)) 0#32) (Ideal.ofBits .f32 0xCE6E6B28#32)
    (matmul dot_S512x64_S2048x64_S512x2048_1_1_0_0_n_n none v1 v3 (constant S512x2048 .f32 0x00000000#32) (ix2 r m) * Ideal.ofBits .f32 0x3E000000#32) = _
  rw [qk_apply]
  rfl

/-- The score row of query `r` of a block, read off the loaded blocks: the queries' block `x0`, the keys' block `x1`
    and the block `x3` of mask words (a word other than zero marks a masked position). -/
def blockScores (x0 : Vec Ideal S1x1x512x64 .bf16) (x1 : Vec Ideal S1x1x2048x64 .bf16) (x3 : Vec Ideal S1x512x2048 .i32)
    (r : Fin 512) : Fin 2048 → EReal :=
  scoreRow (fun d => x0 (ix4 (0 : Fin 1) (0 : Fin 1) r d)) (fun k d => x1 (ix4 (0 : Fin 1) (0 : Fin 1) k d))
    (fun k => IntOp.cmpi .ne (x3 (ix3 (0 : Fin 1) r k)) 0#32)

/-- The block of weights the body stores: entry `(r, m)` is the softmax of query `r`'s score row at `m`. -/
theorem pay3_at (x0 : Vec Ideal S1x1x512x64 .bf16) (x1 : Vec Ideal S1x1x2048x64 .bf16) (x3 : Vec Ideal S1x512x2048 .i32)
    (r : Fin 512) (m : Fin 2048) :
    k0_pay3 (F := Ideal) x0 x1 x3 (ix4 (0 : Fin 1) (0 : Fin 1) r m) = softmaxRow (blockScores x0 x1 x3 r) m := by
  rw [pay3_eq]
  refine (shapeCast_ab_11ab_apply _ shapeCasts_S512x2048_S1x1x512x2048 0 0 r m).trans ?_
  rw [softmaxVec_at]
  refine congrArg (fun s => softmaxRow s m) (funext fun k => ?_)
  rw [scoresVec_at]
  have h0 : ∀ d : Fin 64, shapeCast S512x64 x0 shapeCasts_S1x1x512x64_S512x64 (ix2 r d) = x0 (ix4 (0 : Fin 1) (0 : Fin 1) r d) :=
    fun d => shapeCast_11ab_ab_apply x0 _ r d
  have h1 : ∀ (k : Fin 2048) (d : Fin 64), shapeCast S2048x64 x1 shapeCasts_S1x1x2048x64_S2048x64 (ix2 k d) = x1 (ix4 (0 : Fin 1) (0 : Fin 1) k d) :=
    fun k d => shapeCast_11ab_ab_apply x1 _ k d
  have h3 : ∀ k : Fin 2048, shapeCast S512x2048 x3 shapeCasts_S1x512x2048_S512x2048 (ix2 r k) = x3 (ix3 (0 : Fin 1) r k) :=
    fun k => shapeCast_1ab_ab_apply x3 _ r k
  simp only [h0, h1, h3]
  rfl

/-- The block of results the body stores: entry `(r, d)` is the sum over `m` of the reloaded weight `(r, m)` times
    the value `(m, d)`. -/
theorem pay1_at (x2 : Vec Ideal S1x1x2048x64 .bf16) (w : Vec Ideal S1x1x512x2048 .f32) (r : Fin 512) (d : Fin 64) :
    k0_pay1 (F := Ideal) (k0_pay2 x2) w (ix4 (0 : Fin 1) (0 : Fin 1) r d)
      = ∑ m : Fin 2048, w (ix4 (0 : Fin 1) (0 : Fin 1) r m) * x2 (ix4 (0 : Fin 1) (0 : Fin 1) m d) := by
  unfold k0_pay1 k0_pay2
  refine (shapeCast_ab_11ab_apply _ shapeCasts_S512x64_S1x1x512x64 0 0 r d).trans ?_
  refine (av_apply _ _ r d).trans ?_
  refine Finset.sum_congr rfl fun m _ => ?_
  have hw : truncf (F := Ideal) (φ := .f32) .bf16 (shapeCast S512x2048 w shapeCasts_S1x1x512x2048_S512x2048) bitsLt_bf16_f32 (ix2 r m) = w (ix4 (0 : Fin 1) (0 : Fin 1) r m) :=
    shapeCast_11ab_ab_apply w _ r m
  have hv : shapeCast S2048x64 x2 shapeCasts_S1x1x2048x64_S2048x64 (ix2 m d) = x2 (ix4 (0 : Fin 1) (0 : Fin 1) m d) :=
    shapeCast_11ab_ab_apply x2 _ m d
  rw [hw, hv]

end Cert.KernelIdeal.Payload
end
-- ==== Proof.KernelBlocks.lean ====
/-
  From blocks to arrays: after the kernel's run the two result arrays hold the specification of the argument arrays.

  The grid has 4 · 4 · 16 = 256 points; point `t` is batch `b = t / 64`, query tile `q = t / 16 % 4`, head `h = t % 16`
  (the head moves fastest). At that point the body sees
    the queries' block: rows `512 q … 512 q + 511` of `Q[b, h]`; the keys' and the values' blocks: all of `K[b, h]`, `V[b, h]`;
    the mask's block: rows `512 q …` of the mask of batch `b`, each bit widened to a word before the call (a word is
    not zero exactly when its bit is set); and the bf16 copies of `Q`, `K`, `V` made before the call are `Q`, `K`, `V`
    themselves over the extended reals;
  and it writes back block `(b, h, q)` of the results and of the weights. So what point `t` writes back is the
  specification read through its block (`flushed4_eq`, `flushed5_eq`). Every index `(b, h, l, ·)` lies in the block of the
  point `(b, l / 512, h)`, so the blocks cover both arrays, and each array ends holding the specification whole.
-/
import proofs.«135788_j45165876085421_2_alg».proof.Proof.Gen.KernelIdeal.Value
import proofs.«135788_j45165876085421_2_alg».proof.Proof.Spec
import proofs.«135788_j45165876085421_2_alg».proof.Proof.KernelPieces
import proofs.«135788_j45165876085421_2_alg».proof.Proof.KernelPayload
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Attn

variable (m : (ℓ : Loc nD τ sig) → Buf (Elt Ideal) ℓ) (ρ : Dev nD → PrngReg)

/-- The arrays the region finds: the bf16 copies of the three float arguments are the arguments over the extended
    reals, and the mask's words are its bits widened. -/
theorem V_v0 (c : Dev nD) : (V m c main_v0 : S4x16x2048x64.Idx → EReal) = m ((c : Thread nD τ).loc main_arg0) := by
  dsimp only [Gen.V, Gen.hostOps0]; after_results <;> rfl

theorem V_v3 (c : Dev nD) : (V m c main_v3 : S4x2048x2048.Idx → BitVec 32) = extui 32 (m ((c : Thread nD τ).loc main_arg3)) natLt_1_32 := by
  dsimp only [Gen.V, Gen.hostOps0]; after_results <;> rfl

theorem V_v1 (c : Dev nD) : (V m c main_v1 : S4x16x2048x64.Idx → EReal) = m ((c : Thread nD τ).loc main_arg1) := by
  dsimp only [Gen.V, Gen.hostOps0]; after_results <;> rfl

theorem V_v2 (c : Dev nD) : (V m c main_v2 : S4x16x2048x64.Idx → EReal) = m ((c : Thread nD τ).loc main_arg2) := by
  dsimp only [Gen.V, Gen.hostOps0]; after_results <;> rfl

/-- The printed index maps over the grid: point `t` is batch `t / 64`, query tile `t / 16 % 4`, head `t % 16`. -/
theorem idx_facts : ∀ t : Fin cfg0.N,
    (win0_0.index t (0 : Fin 4) = t.val / 64 ∧ win0_0.index t (1 : Fin 4) = t.val % 16 ∧ win0_0.index t (2 : Fin 4) = t.val / 16 % 4 ∧ win0_0.index t (3 : Fin 4) = 0)
    ∧ (win0_1.index t (0 : Fin 4) = t.val / 64 ∧ win0_1.index t (1 : Fin 4) = t.val % 16 ∧ win0_1.index t (2 : Fin 4) = 0 ∧ win0_1.index t (3 : Fin 4) = 0)
    ∧ (win0_2.index t (0 : Fin 4) = t.val / 64 ∧ win0_2.index t (1 : Fin 4) = t.val % 16 ∧ win0_2.index t (2 : Fin 4) = 0 ∧ win0_2.index t (3 : Fin 4) = 0)
    ∧ (win0_3.index t (0 : Fin 3) = t.val / 64 ∧ win0_3.index t (1 : Fin 3) = t.val / 16 % 4 ∧ win0_3.index t (2 : Fin 3) = 0)
    ∧ (win0_4.index t (0 : Fin 4) = t.val / 64 ∧ win0_4.index t (1 : Fin 4) = t.val % 16 ∧ win0_4.index t (2 : Fin 4) = t.val / 16 % 4 ∧ win0_4.index t (3 : Fin 4) = 0)
    ∧ (win0_5.index t (0 : Fin 4) = t.val / 64 ∧ win0_5.index t (1 : Fin 4) = t.val % 16 ∧ win0_5.index t (2 : Fin 4) = t.val / 16 % 4 ∧ win0_5.index t (3 : Fin 4) = 0) :=
  (by decide +kernel : ∀ t : Fin grid0.N, _)

/-- The queries' block at point `t`: row `r` of the block is query position `512 · tile + r` of the point's batch and head. -/
theorem iblk0_apply (c : Dev nD) (t : Fin cfg0.N) (x : S1x1x512x64.Idx) (k : S4x16x2048x64.Idx)
    (hk0 : (k 0).val = t.val / 64) (hk1 : (k 1).val = t.val % 16) (hk2 : (k 2).val = (t.val / 16 % 4) * 512 + (x 2).val)
    (hk3 : (k 3).val = (x 3).val) :
    (iblk m c 0 t : Vec Ideal S1x1x512x64 .bf16) x = (m ((c : Thread nD τ).loc main_arg0) : S4x16x2048x64.Idx → EReal) k := by
  obtain ⟨⟨e0, e1, e2, e3⟩, -⟩ := idx_facts t
  have hx0 : (x 0).val = 0 := by have h : (x 0).val < 1 := (x 0).isLt; omega
  have hx1 : (x 1).val = 0 := by have h : (x 1).val < 1 := (x 1).isLt; omega
  unfold iblk
  rw [View.read_apply]
  show V m c main_v0 _ = _
  rw [V_v0]
  refine congrArg _ (funext fun a => Fin.ext ?_)
  match a with
  | ⟨0, _⟩ => show win0_0.index t (0 : Fin 4) * 1 + 1 * (x 0).val = (k 0).val; rw [e0, hk0, hx0]; omega
  | ⟨1, _⟩ => show win0_0.index t (1 : Fin 4) * 1 + 1 * (x 1).val = (k 1).val; rw [e1, hk1, hx1]; omega
  | ⟨2, _⟩ => show win0_0.index t (2 : Fin 4) * 512 + 1 * (x 2).val = (k 2).val; rw [e2, hk2]; omega
  | ⟨3, _⟩ => show win0_0.index t (3 : Fin 4) * 64 + 1 * (x 3).val = (k 3).val; rw [e3, hk3]; omega

/-- The keys' block at point `t`: all key positions of the point's batch and head. -/
theorem iblk1_apply (c : Dev nD) (t : Fin cfg0.N) (x : S1x1x2048x64.Idx) (k : S4x16x2048x64.Idx)
    (hk0 : (k 0).val = t.val / 64) (hk1 : (k 1).val = t.val % 16) (hk2 : (k 2).val = (x 2).val) (hk3 : (k 3).val = (x 3).val) :
    (iblk m c 1 t : Vec Ideal S1x1x2048x64 .bf16) x = (m ((c : Thread nD τ).loc main_arg1) : S4x16x2048x64.Idx → EReal) k := by
  obtain ⟨-, ⟨e0, e1, e2, e3⟩, -⟩ := idx_facts t
  have hx0 : (x 0).val = 0 := by have h : (x 0).val < 1 := (x 0).isLt; omega
  have hx1 : (x 1).val = 0 := by have h : (x 1).val < 1 := (x 1).isLt; omega
  unfold iblk
  rw [View.read_apply]
  show V m c main_v1 _ = _
  rw [V_v1]
  refine congrArg _ (funext fun a => Fin.ext ?_)
  match a with
  | ⟨0, _⟩ => show win0_1.index t (0 : Fin 4) * 1 + 1 * (x 0).val = (k 0).val; rw [e0, hk0, hx0]; omega
  | ⟨1, _⟩ => show win0_1.index t (1 : Fin 4) * 1 + 1 * (x 1).val = (k 1).val; rw [e1, hk1, hx1]; omega
  | ⟨2, _⟩ => show win0_1.index t (2 : Fin 4) * 2048 + 1 * (x 2).val = (k 2).val; rw [e2, hk2]; omega
  | ⟨3, _⟩ => show win0_1.index t (3 : Fin 4) * 64 + 1 * (x 3).val = (k 3).val; rw [e3, hk3]; omega

/-- The values' block at point `t`: all key positions of the point's batch and head. -/
theorem iblk2_apply (c : Dev nD) (t : Fin cfg0.N) (x : S1x1x2048x64.Idx) (k : S4x16x2048x64.Idx)
    (hk0 : (k 0).val = t.val / 64) (hk1 : (k 1).val = t.val % 16) (hk2 : (k 2).val = (x 2).val) (hk3 : (k 3).val = (x 3).val) :
    (iblk m c 2 t : Vec Ideal S1x1x2048x64 .bf16) x = (m ((c : Thread nD τ).loc main_arg2) : S4x16x2048x64.Idx → EReal) k := by
  obtain ⟨-, -, ⟨e0, e1, e2, e3⟩, -⟩ := idx_facts t
  have hx0 : (x 0).val = 0 := by have h : (x 0).val < 1 := (x 0).isLt; omega
  have hx1 : (x 1).val = 0 := by have h : (x 1).val < 1 := (x 1).isLt; omega
  unfold iblk
  rw [View.read_apply]
  show V m c main_v2 _ = _
  rw [V_v2]
  refine congrArg _ (funext fun a => Fin.ext ?_)
  match a with
  | ⟨0, _⟩ => show win0_2.index t (0 : Fin 4) * 1 + 1 * (x 0).val = (k 0).val; rw [e0, hk0, hx0]; omega
  | ⟨1, _⟩ => show win0_2.index t (1 : Fin 4) * 1 + 1 * (x 1).val = (k 1).val; rw [e1, hk1, hx1]; omega
  | ⟨2, _⟩ => show win0_2.index t (2 : Fin 4) * 2048 + 1 * (x 2).val = (k 2).val; rw [e2, hk2]; omega
  | ⟨3, _⟩ => show win0_2.index t (3 : Fin 4) * 64 + 1 * (x 3).val = (k 3).val; rw [e3, hk3]; omega

/-- A one-bit word widened to 32 bits is not zero exactly when the bit is set. -/
theorem ne_zero_of_widened (w : BitVec 1) : IntOp.cmpi .ne (w.setWidth 32) 0#32 = w := by
  rcases BitVec.eq_zero_or_eq_one w with h | h <;> subst h <;> decide

/-- The mask's block at point `t`, as bits: rows `512 · tile + r` of the point's batch, the mask having been widened
    to words before the call. -/
theorem iblk3_apply (c : Dev nD) (t : Fin cfg0.N) (x : S1x512x2048.Idx) (k : S4x2048x2048.Idx)
    (hk0 : (k 0).val = t.val / 64) (hk1 : (k 1).val = (t.val / 16 % 4) * 512 + (x 1).val) (hk2 : (k 2).val = (x 2).val) :
    IntOp.cmpi .ne ((iblk m c 3 t : Vec Ideal S1x512x2048 .i32) x) 0#32 = (m ((c : Thread nD τ).loc main_arg3) : S4x2048x2048.Idx → BitVec 1) k := by
  obtain ⟨-, -, -, ⟨e0, e1, e2⟩, -⟩ := idx_facts t
  have hx0 : (x 0).val = 0 := by have h : (x 0).val < 1 := (x 0).isLt; omega
  unfold iblk
  rw [View.read_apply]
  show IntOp.cmpi .ne (V m c main_v3 _) 0#32 = _
  rw [V_v3]
  show IntOp.cmpi .ne ((m ((c : Thread nD τ).loc main_arg3) _).setWidth 32) 0#32 = _
  rw [ne_zero_of_widened]
  refine congrArg _ (funext fun a => Fin.ext ?_)
  match a with
  | ⟨0, _⟩ => show win0_3.index t (0 : Fin 3) * 1 + 1 * (x 0).val = (k 0).val; rw [e0, hk0, hx0]; omega
  | ⟨1, _⟩ => show win0_3.index t (1 : Fin 3) * 512 + 1 * (x 1).val = (k 1).val; rw [e1, hk1]; omega
  | ⟨2, _⟩ => show win0_3.index t (2 : Fin 3) * 2048 + 1 * (x 2).val = (k 2).val; rw [e2, hk2]; omega

open Cert.KernelIdeal.Payload in
/-- If the queries', keys' and mask blocks are rows `l r` of batch `b` and head `h` of the arrays, the weights the body
    stores at `(r, m)` are the specification's at `(b, h, l r, m)`. -/
theorem weights_block (Q K : (⟨4, ![4, 16, 2048, 64]⟩ : Shape).Idx → EReal) (Mk : (⟨3, ![4, 2048, 2048]⟩ : Shape).Idx → BitVec 1)
    (x0 : Vec Ideal S1x1x512x64 .bf16) (x1 : Vec Ideal S1x1x2048x64 .bf16) (x3 : Vec Ideal S1x512x2048 .i32)
    (b : Fin 4) (h : Fin 16) (l : Fin 512 → Fin 2048)
    (hx0 : ∀ (r : Fin 512) (d : Fin 64), x0 (ix4 (0 : Fin 1) (0 : Fin 1) r d) = Q (ix4 b h (l r) d))
    (hx1 : ∀ (k : Fin 2048) (d : Fin 64), x1 (ix4 (0 : Fin 1) (0 : Fin 1) k d) = K (ix4 b h k d))
    (hx3 : ∀ (r : Fin 512) (k : Fin 2048), IntOp.cmpi .ne (x3 (ix3 (0 : Fin 1) r k)) 0#32 = Mk (ix3 b (l r) k))
    (r : Fin 512) (mm : Fin 2048) :
    k0_pay3 (F := Ideal) x0 x1 x3 (ix4 (0 : Fin 1) (0 : Fin 1) r mm) = attnAt Q K Mk b h (l r) mm := by
  rw [pay3_at]
  unfold attnAt scoresAt blockScores
  simp only [hx0, hx1, hx3]

open Cert.KernelIdeal.Payload in
/-- With the values' block the rows of the same batch and head, the results the body stores at `(r, d)` are the
    specification's at `(b, h, l r, d)`. -/
theorem results_block (Q K V : (⟨4, ![4, 16, 2048, 64]⟩ : Shape).Idx → EReal) (Mk : (⟨3, ![4, 2048, 2048]⟩ : Shape).Idx → BitVec 1)
    (x0 : Vec Ideal S1x1x512x64 .bf16) (x1 x2 : Vec Ideal S1x1x2048x64 .bf16) (x3 : Vec Ideal S1x512x2048 .i32)
    (b : Fin 4) (h : Fin 16) (l : Fin 512 → Fin 2048)
    (hx0 : ∀ (r : Fin 512) (d : Fin 64), x0 (ix4 (0 : Fin 1) (0 : Fin 1) r d) = Q (ix4 b h (l r) d))
    (hx1 : ∀ (k : Fin 2048) (d : Fin 64), x1 (ix4 (0 : Fin 1) (0 : Fin 1) k d) = K (ix4 b h k d))
    (hx2 : ∀ (k : Fin 2048) (d : Fin 64), x2 (ix4 (0 : Fin 1) (0 : Fin 1) k d) = V (ix4 b h k d))
    (hx3 : ∀ (r : Fin 512) (k : Fin 2048), IntOp.cmpi .ne (x3 (ix3 (0 : Fin 1) r k)) 0#32 = Mk (ix3 b (l r) k))
    (r : Fin 512) (d : Fin 64) :
    k0_pay1 (F := Ideal) (k0_pay2 x2) (k0_pay3 x0 x1 x3) (ix4 (0 : Fin 1) (0 : Fin 1) r d) = resAt Q K V Mk b h (l r) d := by
  rw [pay1_at]
  unfold resAt
  refine Finset.sum_congr rfl fun mm _ => ?_
  rw [weights_block Q K Mk x0 x1 x3 b h l hx0 hx1 hx3 r mm, hx2]

/-- What point `t` writes back to the weights' array is its block of the specification's weights. -/
theorem flushed5_eq (c : Dev nD) (t : Fin cfg0.N) :
    (dats m 0 c).flushed 5 t = ((cfg0.win 5).blk t).view.read (Elt Ideal)
      (attn (m ((c : Thread nD τ).loc main_arg0)) (m ((c : Thread nD τ).loc main_arg1)) (m ((c : Thread nD τ).loc main_arg3))) := by
  rw [Value.flushed5_A, Pieces.out5]
  have hN : cfg0.N = 256 := N_0
  have ht : t.val < 256 := hN ▸ t.isLt
  obtain ⟨-, -, -, -, -, ⟨e0, e1, e2, e3⟩⟩ := idx_facts t
  funext y
  rw [View.read_apply]
  have y0 : (y 0).val = 0 := by have h : (y 0).val < 1 := (y 0).isLt; omega
  have y1 : (y 1).val = 0 := by have h : (y 1).val < 1 := (y 1).isLt; omega
  have y2 : (y 2).val < 512 := (y 2).isLt
  have y3 : (y 3).val < 2048 := (y 3).isLt
  have hy : (win0_5.xinj (grid0.coords t) y : S1x1x512x2048.Idx) = ix4 (0 : Fin 1) (0 : Fin 1) ⟨(y 2).val, y2⟩ ⟨(y 3).val, y3⟩ :=
    funext fun a => Fin.ext (by
      match a with
      | ⟨0, _⟩ => exact y0
      | ⟨1, _⟩ => exact y1
      | ⟨2, _⟩ => rfl
      | ⟨3, _⟩ => rfl)
  have hemb : (((cfg0.win 5).blk t).view.emb y : S4x16x2048x2048.Idx)
      = ix4 (⟨t.val / 64, by omega⟩ : Fin 4) (⟨t.val % 16, by omega⟩ : Fin 16) (⟨(t.val / 16 % 4) * 512 + (y 2).val, by omega⟩ : Fin 2048) (⟨(y 3).val, y3⟩ : Fin 2048) :=
    funext fun a => Fin.ext (by
      match a with
      | ⟨0, _⟩ => show win0_5.index t (0 : Fin 4) * 1 + 1 * (y 0).val = t.val / 64; rw [e0, y0]; omega
      | ⟨1, _⟩ => show win0_5.index t (1 : Fin 4) * 1 + 1 * (y 1).val = t.val % 16; rw [e1, y1]; omega
      | ⟨2, _⟩ => show win0_5.index t (2 : Fin 4) * 512 + 1 * (y 2).val = (t.val / 16 % 4) * 512 + (y 2).val; rw [e2]; omega
      | ⟨3, _⟩ => show win0_5.index t (3 : Fin 4) * 2048 + 1 * (y 3).val = (y 3).val; rw [e3]; omega)
  show k0_pay3 (iblk m c 0 t) (iblk m c 1 t) (iblk m c 3 t) (win0_5.xinj (grid0.coords t) y) = _
  rw [hy, hemb, attn_ix]
  exact weights_block _ _ _ (iblk m c 0 t) (iblk m c 1 t) (iblk m c 3 t) ⟨t.val / 64, by omega⟩ ⟨t.val % 16, by omega⟩
    (fun r => ⟨(t.val / 16 % 4) * 512 + r.val, by omega⟩)
    (fun r d => iblk0_apply m c t _ _ rfl rfl rfl rfl) (fun k d => iblk1_apply m c t _ _ rfl rfl rfl rfl)
    (fun r k => iblk3_apply m c t _ _ rfl rfl rfl) ⟨(y 2).val, y2⟩ ⟨(y 3).val, y3⟩

/-- What point `t` writes back to the results' array is its block of the specification's results. -/
theorem flushed4_eq (c : Dev nD) (t : Fin cfg0.N) :
    (dats m 0 c).flushed 4 t = ((cfg0.win 4).blk t).view.read (Elt Ideal)
      (res (m ((c : Thread nD τ).loc main_arg0)) (m ((c : Thread nD τ).loc main_arg1)) (m ((c : Thread nD τ).loc main_arg2)) (m ((c : Thread nD τ).loc main_arg3))) := by
  rw [Value.flushed4_A, Pieces.out4]
  have hN : cfg0.N = 256 := N_0
  have ht : t.val < 256 := hN ▸ t.isLt
  obtain ⟨-, -, -, -, ⟨e0, e1, e2, e3⟩, -⟩ := idx_facts t
  funext y
  rw [View.read_apply]
  have y0 : (y 0).val = 0 := by have h : (y 0).val < 1 := (y 0).isLt; omega
  have y1 : (y 1).val = 0 := by have h : (y 1).val < 1 := (y 1).isLt; omega
  have y2 : (y 2).val < 512 := (y 2).isLt
  have y3 : (y 3).val < 64 := (y 3).isLt
  have hy : (win0_4.xinj (grid0.coords t) y : S1x1x512x64.Idx) = ix4 (0 : Fin 1) (0 : Fin 1) ⟨(y 2).val, y2⟩ ⟨(y 3).val, y3⟩ :=
    funext fun a => Fin.ext (by
      match a with
      | ⟨0, _⟩ => exact y0
      | ⟨1, _⟩ => exact y1
      | ⟨2, _⟩ => rfl
      | ⟨3, _⟩ => rfl)
  have hemb : (((cfg0.win 4).blk t).view.emb y : S4x16x2048x64.Idx)
      = ix4 (⟨t.val / 64, by omega⟩ : Fin 4) (⟨t.val % 16, by omega⟩ : Fin 16) (⟨(t.val / 16 % 4) * 512 + (y 2).val, by omega⟩ : Fin 2048) (⟨(y 3).val, y3⟩ : Fin 64) :=
    funext fun a => Fin.ext (by
      match a with
      | ⟨0, _⟩ => show win0_4.index t (0 : Fin 4) * 1 + 1 * (y 0).val = t.val / 64; rw [e0, y0]; omega
      | ⟨1, _⟩ => show win0_4.index t (1 : Fin 4) * 1 + 1 * (y 1).val = t.val % 16; rw [e1, y1]; omega
      | ⟨2, _⟩ => show win0_4.index t (2 : Fin 4) * 512 + 1 * (y 2).val = (t.val / 16 % 4) * 512 + (y 2).val; rw [e2]; omega
      | ⟨3, _⟩ => show win0_4.index t (3 : Fin 4) * 64 + 1 * (y 3).val = (y 3).val; rw [e3]; omega)
  show k0_pay1 (k0_pay2 (iblk m c 2 t)) (k0_pay3 (iblk m c 0 t) (iblk m c 1 t) (iblk m c 3 t)) (win0_4.xinj (grid0.coords t) y) = _
  rw [hy, hemb, res_ix]
  exact results_block _ _ _ _ (iblk m c 0 t) (iblk m c 1 t) (iblk m c 2 t) (iblk m c 3 t) ⟨t.val / 64, by omega⟩ ⟨t.val % 16, by omega⟩
    (fun r => ⟨(t.val / 16 % 4) * 512 + r.val, by omega⟩)
    (fun r d => iblk0_apply m c t _ _ rfl rfl rfl rfl) (fun k d => iblk1_apply m c t _ _ rfl rfl rfl rfl)
    (fun k d => iblk2_apply m c t _ _ rfl rfl rfl rfl)
    (fun r k => iblk3_apply m c t _ _ rfl rfl rfl) ⟨(y 2).val, y2⟩ ⟨(y 3).val, y3⟩

/-- An index of the weights' array is in point `t`'s block iff each coordinate is in the block's range on its axis. -/
theorem mem_blk5 (t : Fin cfg0.N) (i : S4x16x2048x2048.Idx) :
    i ∈ ((cfg0.win 5).blk t).view.set ↔ ∀ a : Fin 4, win0_5.index t a * S1x1x512x2048.size a ≤ (i a).val ∧ (i a).val < win0_5.index t a * S1x1x512x2048.size a + S1x1x512x2048.size a := by
  show i ∈ ((View.whole main_v4_1).slice (win0_5.rect t)).set ↔ _
  rw [View.set_slice_whole, Rect.mem_set_unit]
  exact Iff.rfl

/-- Likewise for the results' array. -/
theorem mem_blk4 (t : Fin cfg0.N) (i : S4x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v4_0).slice (win0_4.rect t)).set ↔ _
  rw [View.set_slice_whole, Rect.mem_set_unit]
  exact Iff.rfl

/-- Every index `(b, h, l, m)` of the weights' array is in the block of the point of batch `b`, tile `l / 512`, head `h`. -/
theorem cover5 (i : S4x16x2048x2048.Idx) : ∃ t : Fin cfg0.N, (cfg0.win 5).flush t = true ∧ i ∈ ((cfg0.win 5).blk t).view.set := by
  have hN : cfg0.N = 256 := N_0
  have i0 : (i 0).val < 4 := (i 0).isLt
  have i1 : (i 1).val < 16 := (i 1).isLt
  have i2 : (i 2).val < 2048 := (i 2).isLt
  have i3 : (i 3).val < 2048 := (i 3).isLt
  obtain ⟨t, htv⟩ : ∃ t : Fin cfg0.N, t.val = (i 0).val * 64 + ((i 2).val / 512) * 16 + (i 1).val :=
    ⟨⟨(i 0).val * 64 + ((i 2).val / 512) * 16 + (i 1).val, by omega⟩, rfl⟩
  refine ⟨t, flush0_5 t, ?_⟩
  obtain ⟨-, -, -, -, -, ⟨e0, e1, e2, e3⟩⟩ := idx_facts t
  rw [mem_blk5]
  intro a
  match a with
  | ⟨0, _⟩ => show win0_5.index t (0 : Fin 4) * 1 ≤ (i 0).val ∧ (i 0).val < win0_5.index t (0 : Fin 4) * 1 + 1; rw [e0, htv]; omega
  | ⟨1, _⟩ => show win0_5.index t (1 : Fin 4) * 1 ≤ (i 1).val ∧ (i 1).val < win0_5.index t (1 : Fin 4) * 1 + 1; rw [e1, htv]; omega
  | ⟨2, _⟩ => show win0_5.index t (2 : Fin 4) * 512 ≤ (i 2).val ∧ (i 2).val < win0_5.index t (2 : Fin 4) * 512 + 512; rw [e2, htv]; omega
  | ⟨3, _⟩ => show win0_5.index t (3 : Fin 4) * 2048 ≤ (i 3).val ∧ (i 3).val < win0_5.index t (3 : Fin 4) * 2048 + 2048; rw [e3]; omega

/-- Every index `(b, h, l, d)` of the results' array is in the block of the point of batch `b`, tile `l / 512`, head `h`. -/
theorem cover4 (i : S4x16x2048x64.Idx) : ∃ t : Fin cfg0.N, (cfg0.win 4).flush t = true ∧ i ∈ ((cfg0.win 4).blk t).view.set := by
  have hN : cfg0.N = 256 := N_0
  have i0 : (i 0).val < 4 := (i 0).isLt
  have i1 : (i 1).val < 16 := (i 1).isLt
  have i2 : (i 2).val < 2048 := (i 2).isLt
  have i3 : (i 3).val < 64 := (i 3).isLt
  obtain ⟨t, htv⟩ : ∃ t : Fin cfg0.N, t.val = (i 0).val * 64 + ((i 2).val / 512) * 16 + (i 1).val :=
    ⟨⟨(i 0).val * 64 + ((i 2).val / 512) * 16 + (i 1).val, by omega⟩, rfl⟩
  refine ⟨t, flush0_4 t, ?_⟩
  obtain ⟨-, -, -, -, ⟨e0, e1, e2, e3⟩, -⟩ := idx_facts t
  rw [mem_blk4]
  intro a
  match a with
  | ⟨0, _⟩ => show win0_4.index t (0 : Fin 4) * 1 ≤ (i 0).val ∧ (i 0).val < win0_4.index t (0 : Fin 4) * 1 + 1; rw [e0, htv]; omega
  | ⟨1, _⟩ => show win0_4.index t (1 : Fin 4) * 1 ≤ (i 1).val ∧ (i 1).val < win0_4.index t (1 : Fin 4) * 1 + 1; rw [e1, htv]; omega
  | ⟨2, _⟩ => show win0_4.index t (2 : Fin 4) * 512 ≤ (i 2).val ∧ (i 2).val < win0_4.index t (2 : Fin 4) * 512 + 512; rw [e2, htv]; omega
  | ⟨3, _⟩ => show win0_4.index t (3 : Fin 4) * 64 ≤ (i 3).val ∧ (i 3).val < win0_4.index t (3 : Fin 4) * 64 + 64; rw [e3]; omega

/-- The weights' array after the run is the specification's weights of the argument arrays. -/
theorem final5 (c : Dev nD) : (dats m 0 c).arrAt 5 cfg0.N
    = attn (m ((c : Thread nD τ).loc main_arg0)) (m ((c : Thread nD τ).loc main_arg1)) (m ((c : Thread nD τ).loc main_arg3)) :=
  (dats m 0 c).arrAt_eq_of_cover 5 _ (fun t _ => flushed5_eq m c t) cover5

/-- The results' array after the run is the specification's results of the argument arrays. -/
theorem final4 (c : Dev nD) : (dats m 0 c).arrAt 4 cfg0.N
    = res (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4_eq m c t) cover4

/-- The kernel's run: both result arrays at the specification of the argument arrays, the arguments unchanged. -/
theorem run : θ_run defs (onTc (τ := τ) (main (F := Ideal))) ⟨m, fun _ => 0, ρ⟩ fun r => ∀ c : Dev nD,
      r.2.mem ((c : Thread nD τ).loc main_v4_0) = res (m ((c : Thread nD τ).loc main_arg0)) (m ((c : Thread nD τ).loc main_arg1)) (m ((c : Thread nD τ).loc main_arg2)) (m ((c : Thread nD τ).loc main_arg3))
      ∧ r.2.mem ((c : Thread nD τ).loc main_v4_1) = attn (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Blocks
end
-- ==== Proof.Consts.lean ====
/-
  The float constants the two programs spell, read as extended reals: the reference divides the scores by
  `8.0`, the kernel multiplies them by `0.125`, and both start a row's maximum from the pattern of `-∞`.
  On every extended real, infinite ones included, dividing by the real 8 is multiplying by the real 1/8,
  and `-∞` is the bottom of the order, so a maximum taken from it is the maximum of the elements alone.
-/
import Idealize.ShloMosaic.PureOps.Ideal

noncomputable section

namespace Cert.Attn.Consts

open Idealize.ShloMosaic

/-- `8.0` denotes the real 8. -/
theorem ofBits_eight : Ideal.ofBits .f32 0x41000000#32 = ((8 : ℝ) : EReal) := by
  simp [Ideal.ofBits, Ideal.ieee, -EReal.coe_mul]; norm_num

/-- `0.125` denotes the real 1/8. -/
theorem ofBits_eighth : Ideal.ofBits .f32 0x3E000000#32 = ((1 / 8 : ℝ) : EReal) := by
  simp [Ideal.ofBits, Ideal.ieee, -EReal.coe_mul]; norm_num

/-- The pattern `0xFF800000` denotes `-∞`, the least extended real. -/
theorem ofBits_neg_inf : Ideal.ofBits .f32 0xFF800000#32 = ⊥ := by
  simp [Ideal.ofBits, Ideal.ieee]

/-- A quotient by `8.0` is the product with `0.125`, on every extended real. -/
theorem div_eight (x : EReal) :
    Ideal.div x (Ideal.ofBits .f32 0x41000000#32) = x * Ideal.ofBits .f32 0x3E000000#32 := by
  rw [ofBits_eight, ofBits_eighth, Ideal.div_coe (by norm_num : (8 : ℝ) ≠ 0)]

/-- The maximum of `-∞` and `x` is `x`. -/
theorem max_neg_inf (x : EReal) : max (Ideal.ofBits .f32 0xFF800000#32) x = x := by
  rw [ofBits_neg_inf]; exact max_bot_left x

end Cert.Attn.Consts

end
-- ==== Proof.RefIsSpec.lean ====
/-
  The reference program computes the specification.

  Read one operation at a time at an index `(b, h, l, m)`:
  • the masked scores: the contraction of `Q[b,h,l,·]` with `K[b,h,m,·]`, divided by `8.0` — the product with `0.125` on
    every extended real — and replaced by the fill value where the mask bit of `(b, l, m)` (the mask broadcast over the
    heads) is set: the row `scoresAt Q K Mk b h l` at `m`;
  • the row maximum: the fold of `max` from `-∞` over `m`, and the further `max` with a splat of `-∞` changes nothing;
  • the exponentials of the scores less the maximum, their sum over `m` from `0`, and the quotient: the softmax of the row;
  • the second contraction: the sum over `m` of the weight at `(b, h, l, m)` times `V[b,h,m,d]`.
-/
import proofs.«135788_j45165876085421_2_alg».proof.Proof.Gen.ReferenceIdeal.Read
import proofs.«135788_j45165876085421_2_alg».proof.Proof.Spec
import proofs.«135788_j45165876085421_2_alg».proof.Proof.Consts

noncomputable section

namespace Cert.ReferenceIdeal.RefValue

open Cert.ReferenceIdeal Cert.ReferenceIdeal.Gen Cert.ReferenceIdeal.Read Idealize.ShloMosaic Idealize.ShloMosaic.ValueIdx Cert.Attn

variable (Q K V : (⟨S4x16x2048x64, .f32⟩ : BufTy).Contents (Elt Ideal)) (Mk : (⟨S4x2048x2048, .i1⟩ : BufTy).Contents (Elt Ideal))

/-- The masked, scaled scores at `(b, h, l, m)`. -/
theorem v4_at (b : Fin 4) (h : Fin 16) (l m : Fin 2048) :
    val_main_v4 (F := Ideal) Q K Mk (ix4 b h l m) = scoresAt Q K Mk b h l m := by
  rw [val_main_v4_apply, val_main_call0_v1_apply, val_main_v3_apply, val_main_call0_v2_apply, val_main_call0_v0_apply,
    val_main_cst_0_apply, val_main_v2_apply, val_main_v0_apply, val_main_v1_apply, val_main_cst_apply]
  have e1 : idx_main_v3 (idx_main_call0_v1 (ix4 b h l m)) = ix3 b l m :=
    funext fun a => by match a with | ⟨0, _⟩ => rfl | ⟨1, _⟩ => rfl | ⟨2, _⟩ => rfl
  have e2 : ∀ k : Fin 64, lidx_main_v0 (ix4 b h l m) k = ix4 b h l k := fun k =>
    funext fun a => by match a with | ⟨0, _⟩ => rfl | ⟨1, _⟩ => rfl | ⟨2, _⟩ => rfl | ⟨3, _⟩ => rfl
  have e3 : ∀ k : Fin 64, ridx_main_v0 (ix4 b h l m) k = ix4 b h m k := fun k =>
    funext fun a => by match a with | ⟨0, _⟩ => rfl | ⟨1, _⟩ => rfl | ⟨2, _⟩ => rfl | ⟨3, _⟩ => rfl
  simp only [e1, e2, e3, Ideal.hostDivf_def, Ideal.ofBits_def, Consts.div_eight]
  rfl

/-- The reduction by `maximum` along the last axis at `(b, h, l)`: the row's maximum from `-∞`. -/
theorem v5_at (b : Fin 4) (h : Fin 16) (l : Fin 2048) :
    val_main_v5 (F := Ideal) Q K Mk (ix3 b h l) = rowMax (scoresAt Q K Mk b h l) := by
  unfold val_main_v5
  refine (Host.reduce_eq_fold_single (FloatOps.maximumf (F := Ideal) (φ := .f32)) (val_main_v4 (F := Ideal) Q K Mk) (val_main_cst_1 (F := Ideal))
    reducesTo_S4x16x2048x2048_S4x16x2048_d3 (by decide : S4x16x2048x2048.Reduces [3] S4x16x2048) h_S_ (ix3 b h l)).trans ?_
  unfold rowMax
  refine Finset.fold_congr (fun k _ => ?_)
  refine Eq.trans (congrArg (val_main_v4 (F := Ideal) Q K Mk) ?_) (v4_at Q K Mk b h l k)
  exact funext fun a => Fin.ext (by match a with | ⟨0, _⟩ => rfl | ⟨1, _⟩ => rfl | ⟨2, _⟩ => rfl | ⟨3, _⟩ => rfl)

/-- The further `maximum` with `-∞` leaves the row's maximum. -/
theorem v7_at (b : Fin 4) (h : Fin 16) (l : Fin 2048) :
    val_main_v7 (F := Ideal) Q K Mk (ix3 b h l) = rowMax (scoresAt Q K Mk b h l) := by
  rw [val_main_v7_apply, val_main_v6_apply, val_main_cst_2_apply, v5_at]
  exact Consts.max_neg_inf _

/-- The exponential of a score less its row's maximum. -/
theorem v11_at (b : Fin 4) (h : Fin 16) (l m : Fin 2048) :
    val_main_v11 (F := Ideal) Q K Mk (ix4 b h l m) = expRow (scoresAt Q K Mk b h l) m := by
  rw [val_main_v11_apply, val_main_v10_apply, val_main_v9_apply, val_main_v8_apply, v4_at]
  have e : idx_main_v8 (idx_main_v9 (ix4 b h l m)) = ix3 b h l :=
    funext fun a => by match a with | ⟨0, _⟩ => rfl | ⟨1, _⟩ => rfl | ⟨2, _⟩ => rfl
  rw [e, v7_at]
  rfl

/-- The row's sum of exponentials, from the initial value `0`. -/
theorem v12_at (b : Fin 4) (h : Fin 16) (l : Fin 2048) :
    val_main_v12 (F := Ideal) Q K Mk (ix3 b h l) = ∑ m : Fin 2048, expRow (scoresAt Q K Mk b h l) m := by
  rw [val_main_v12_apply, val_main_cst_3_apply, Ideal.ofBits_def, Ideal.ofBits_zero_f32, zero_add]
  refine Finset.sum_congr rfl fun m _ => ?_
  refine Eq.trans (congrArg (val_main_v11 (F := Ideal) Q K Mk) ?_) (v11_at Q K Mk b h l m)
  exact funext fun a => by match a with | ⟨0, _⟩ => rfl | ⟨1, _⟩ => rfl | ⟨2, _⟩ => rfl | ⟨3, _⟩ => rfl

/-- The reference's array of weights is the specification's. -/
theorem v15_eq : val_main_v15 (F := Ideal) Q K Mk = attn Q K Mk := by
  funext i
  obtain ⟨b, h, l, m, rfl⟩ : ∃ (b : Fin 4) (h : Fin 16) (l m : Fin 2048), i = ix4 b h l m := ⟨i 0, i 1, i 2, i 3, eq_ix4 i⟩
  rw [attn_ix, val_main_v15_apply, val_main_v14_apply, val_main_v13_apply, v11_at]
  have e : idx_main_v13 (idx_main_v14 (ix4 b h l m)) = ix3 b h l :=
    funext fun a => by match a with | ⟨0, _⟩ => rfl | ⟨1, _⟩ => rfl | ⟨2, _⟩ => rfl
  rw [e, v12_at]
  rfl

/-- The reference's weighted sums are the specification's. -/
theorem v16_eq : val_main_v16 (F := Ideal) Q K V Mk = res Q K V Mk := by
  funext i
  obtain ⟨b, h, l, d, rfl⟩ : ∃ (b : Fin 4) (h : Fin 16) (l : Fin 2048) (d : Fin 64), i = ix4 b h l d := ⟨i 0, i 1, i 2, i 3, eq_ix4 i⟩
  rw [res_ix, val_main_v16_apply, v15_eq]
  unfold resAt
  refine Finset.sum_congr rfl fun m _ => ?_
  have e1 : lidx_main_v16 (ix4 b h l d) m = ix4 b h l m :=
    funext fun a => by match a with | ⟨0, _⟩ => rfl | ⟨1, _⟩ => rfl | ⟨2, _⟩ => rfl | ⟨3, _⟩ => rfl
  have e2 : ridx_main_v16 (ix4 b h l d) m = ix4 b h m d :=
    funext fun a => by match a with | ⟨0, _⟩ => rfl | ⟨1, _⟩ => rfl | ⟨2, _⟩ => rfl | ⟨3, _⟩ => rfl
  rw [e1, e2, attn_ix]

end Cert.ReferenceIdeal.RefValue
end
-- ==== Proof.lean ====
/-
  Masked scaled dot-product attention: a kernel over a grid of (batch, query tile, head) against a reference written
  with two einsums, a masking select and a softmax; the two are equal over the extended reals.

  Both programs compute, for every batch `b`, head `h` and query position `l`, the row of scores
  `s m = -1e9` where the mask bit of `(b, l, m)` is set and `(∑_d Q[b,h,l,d] · K[b,h,m,d]) / 8` elsewhere, the weights
  `attn[b,h,l,m] = exp (s m - max s) / ∑_{m'} exp (s m' - max s)` and the results `∑_m attn[b,h,l,m] · V[b,h,m,d]`
  (Proof/Spec.lean). They differ in three ways, none of which changes an extended real:
  • the kernel multiplies the scores by `0.125` where the reference divides them by `8.0` (Proof/Consts.lean);
  • the kernel rounds `Q`, `K`, `V` and the weights to bf16 on the way into its two matrix products, which here is
    the identity, and its two products and two row reductions are the same sums and the same fold of `max` as the
    reference's contractions and reductions (Proof/KernelPayload.lean, Proof/RefIsSpec.lean);
  • the reference takes one more `max` of the row maximum with `-∞`, which leaves it.
  The kernel computes a block of 512 query positions per grid point from whole rows of keys and values; the blocks of
  the 256 points tile both result arrays (Proof/KernelBlocks.lean). No law used needs the inputs finite: the
  precondition is only what the statement carries.

  The three frames are the generated frame runs; the idealization rewrote nothing.
-/
import proofs.«135788_j45165876085421_2_alg».proof.Defs
import proofs.«135788_j45165876085421_2_alg».proof.Proof.Gen.Kernel
import proofs.«135788_j45165876085421_2_alg».proof.Proof.Gen.Kernel.Frame
import proofs.«135788_j45165876085421_2_alg».proof.Proof.Gen.KernelIdeal
import proofs.«135788_j45165876085421_2_alg».proof.Proof.Gen.KernelIdeal.Frame
import proofs.«135788_j45165876085421_2_alg».proof.Proof.Gen.ReferenceIdeal
import proofs.«135788_j45165876085421_2_alg».proof.Proof.Gen.ReferenceIdeal.Run
import proofs.«135788_j45165876085421_2_alg».proof.Proof.Gen.ReferenceIdeal.Read
import proofs.«135788_j45165876085421_2_alg».proof.Proof.Gen.Pre_finite_inputs
import proofs.«135788_j45165876085421_2_alg».proof.Proof.KernelBlocks
import proofs.«135788_j45165876085421_2_alg».proof.Proof.RefIsSpec
import Idealize.ShloMosaic.Adequacy
import Idealize.ShloMosaic.Init

noncomputable section

namespace Cert.Proof

open Idealize.ShloMosaic Idealize.ShloMosaic.TcCoe Idealize.SL.Sem Cert.Attn

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Over the extended reals the kernel's two result arrays end at the specification's results and weights of its
    arguments, and the reference's two results are the same specification of arguments that agree. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v16_eq _ _ _ _).trans (Cert.ReferenceIdeal.RefValue.v16_eq _ _ _ _)
  · rw [(hagree c).1, (hagree c).2.1, (hagree c).2.2.2]
    exact (Cert.ReferenceIdeal.Read.val_main_v15_eq _ _ _).trans (Cert.ReferenceIdeal.RefValue.v15_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
